-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v65)) (v1 : (c : Dev Cert.KernelIdeal.nD) → Buf (Elt Ideal) ((c.tc : Thread Cert.KernelIdeal.nD Cert.KernelIdeal.τ).loc Cert.KernelIdeal.main_v131)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_v131) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v183) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S64x256 : Shape := ⟨2, ![64, 256]⟩
abbrev S64 : Shape := ⟨1, ![64]⟩
abbrev S64x64 : Shape := ⟨2, ![64, 64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x256 .f32) (main_arg1 : IVec S2x1600000 32) (main_arg2 : FVec F S100000x256 .f32) (main_arg3 : IVec S2x1600000 32) (main_arg4 : FVec F S64x256 .f32) (main_arg5 : FVec F S64 .f32) (main_arg6 : FVec F S64x64 .f32) (main_arg7 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x256 .f32 := Host.absf main_arg2
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S64x256 .f32 := Host.absf main_arg4
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S100000x256 : Shape := ⟨2, ![100000, 256]⟩
abbrev S2x1600000 : Shape := ⟨2, ![2, 1600000]⟩
abbrev S64x256 : Shape := ⟨2, ![64, 256]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x256 : Shape := ⟨2, ![5000, 256]⟩
abbrev S5000x64 : Shape := ⟨2, ![5000, 64]⟩
abbrev S256x64 : Shape := ⟨2, ![256, 64]⟩
abbrev S1700000x64 : Shape := ⟨2, ![1700000, 64]⟩
abbrev S1x64 : Shape := ⟨2, ![1, 64]⟩

abbrev nBuf : Space → Nat
  | .hbm => 178
  | .vmem => 20
  | .smem => 0
  | _ => 0

abbrev hbmTy0_0 (i : Nat) : BufTy := match i % 128 with
  | 0 => ⟨S100000x256, .f32⟩
  | 1 => ⟨S2x1600000, .i32⟩
  | 2 => ⟨S100000x256, .f32⟩
  | 3 => ⟨S2x1600000, .i32⟩
  | 4 => ⟨S64x256, .f32⟩
  | 5 => ⟨S64, .f32⟩
  | 6 => ⟨S64x64, .f32⟩
  | 7 => ⟨S64, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S100000x64, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x1, .f32⟩
  | 61 => ⟨S1700000x64, .f32⟩
  | 62 => ⟨S1700000x64, .f32⟩
  | 63 => ⟨S_, .f32⟩
  | 64 => ⟨S100000x64, .f32⟩
  | 65 => ⟨S1700000x1, .i32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000x64, .f32⟩
  | 74 => ⟨S_, .i32⟩
  | 75 => ⟨S1700000, .i32⟩
  | 76 => ⟨S1700000, .i1⟩
  | 77 => ⟨S_, .i32⟩
  | 78 => ⟨S1700000, .i32⟩
  | 79 => ⟨S1700000, .i32⟩
  | 80 => ⟨S1700000, .i32⟩
  | 81 => ⟨S1700000x1, .i32⟩
  | 82 => ⟨S1700000x64, .f32⟩
  | 83 => ⟨S1700000x1, .f32⟩
  | 84 => ⟨S1700000x64, .f32⟩
  | 85 => ⟨S1700000x64, .f32⟩
  | 86 => ⟨S_, .f32⟩
  | 87 => ⟨S100000x64, .f32⟩
  | 88 => ⟨S1700000x1, .i32⟩
  | 89 => ⟨S100000x64, .f32⟩
  | 90 => ⟨S1x64, .f32⟩
  | 91 => ⟨S100000x64, .f32⟩
  | 92 => ⟨S100000x64, .f32⟩
  | 93 => ⟨S100000, .i32⟩
  | 94 => ⟨S1x1600000, .i32⟩
  | 95 => ⟨S1600000, .i32⟩
  | 96 => ⟨S1700000, .i32⟩
  | 97 => ⟨S1x1600000, .i32⟩
  | 98 => ⟨S1600000, .i32⟩
  | 99 => ⟨S1700000, .i32⟩
  | 100 => ⟨S_, .f32⟩
  | 101 => ⟨S1700000, .f32⟩
  | 102 => ⟨S_, .f32⟩
  | 103 => ⟨S100000, .f32⟩
  | 104 => ⟨S1700000x1, .i32⟩
  | 105 => ⟨S100000, .f32⟩
  | 106 => ⟨S_, .f32⟩
  | 107 => ⟨S100000, .f32⟩
  | 108 => ⟨S100000, .i1⟩
  | 109 => ⟨S_, .f32⟩
  | 110 => ⟨S100000, .f32⟩
  | 111 => ⟨S100000, .f32⟩
  | 112 => ⟨S_, .f32⟩
  | 113 => ⟨S_, .f32⟩
  | 114 => ⟨S100000, .f32⟩
  | 115 => ⟨S100000, .f32⟩
  | 116 => ⟨S_, .i32⟩
  | 117 => ⟨S1700000, .i32⟩
  | 118 => ⟨S1700000, .i1⟩
  | 119 => ⟨S_, .i32⟩
  | 120 => ⟨S1700000, .i32⟩
  | 121 => ⟨S1700000, .i32⟩
  | 122 => ⟨S1700000, .i32⟩
  | 123 => ⟨S1700000x1, .i32⟩
  | 124 => ⟨S1700000, .f32⟩
  | 125 => ⟨S_, .i32⟩
  | 126 => ⟨S1700000, .i32⟩
  | 127 => ⟨S1700000, .i1⟩
  | _ => ⟨S100000x256, .f32⟩

abbrev hbmTy0_1 (i : Nat) : BufTy := match i % 128 with
  | 0 => ⟨S_, .i32⟩
  | 1 => ⟨S1700000, .i32⟩
  | 2 => ⟨S1700000, .i32⟩
  | 3 => ⟨S1700000, .i32⟩
  | 4 => ⟨S1700000x1, .i32⟩
  | 5 => ⟨S1700000, .f32⟩
  | 6 => ⟨S1700000, .f32⟩
  | 7 => ⟨S100000x64, .f32⟩
  | 8 => ⟨S_, .i32⟩
  | 9 => ⟨S1700000, .i32⟩
  | 10 => ⟨S1700000, .i1⟩
  | 11 => ⟨S_, .i32⟩
  | 12 => ⟨S1700000, .i32⟩
  | 13 => ⟨S1700000, .i32⟩
  | 14 => ⟨S1700000, .i32⟩
  | 15 => ⟨S1700000x1, .i32⟩
  | 16 => ⟨S1700000x64, .f32⟩
  | 17 => ⟨S1700000x1, .f32⟩
  | 18 => ⟨S1700000x64, .f32⟩
  | 19 => ⟨S1700000x64, .f32⟩
  | 20 => ⟨S_, .f32⟩
  | 21 => ⟨S100000x64, .f32⟩
  | 22 => ⟨S1700000x1, .i32⟩
  | 23 => ⟨S100000x64, .f32⟩
  | 24 => ⟨S1x64, .f32⟩
  | 25 => ⟨S100000x64, .f32⟩
  | 26 => ⟨S100000x64, .f32⟩
  | 27 => ⟨S_, .f32⟩
  | 28 => ⟨S100000x64, .f32⟩
  | 29 => ⟨S100000x64, .f32⟩
  | 30 => ⟨S100000x64, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000x64, .f32⟩
  | 40 => ⟨S1700000x1, .f32⟩
  | 41 => ⟨S1700000x64, .f32⟩
  | 42 => ⟨S1700000x64, .f32⟩
  | 43 => ⟨S_, .f32⟩
  | 44 => ⟨S100000x64, .f32⟩
  | 45 => ⟨S1700000x1, .i32⟩
  | 46 => ⟨S100000x64, .f32⟩
  | 47 => ⟨S1x64, .f32⟩
  | 48 => ⟨S100000x64, .f32⟩
  | 49 => ⟨S100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S64x256, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S5000x64, .f32⟩
  | .local _ .vmem, ⟨9, _⟩ => ⟨S5000x64, .f32⟩
  | .local _ .vmem, ⟨10, _⟩ => ⟨S5000x256, .f32⟩
  | .local _ .vmem, ⟨11, _⟩ => ⟨S5000x256, .f32⟩
  | .local _ .vmem, ⟨12, _⟩ => ⟨S64x256, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S5000x64, .f32⟩
  | .local _ .vmem, ⟨19, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_cst : Ref sig .tc := ⟨.hbm, 70, rfl⟩
abbrev main_call1_v0 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_13 : Ref sig .tc := ⟨.hbm, 100, rfl⟩
abbrev main_v73 : Ref sig .tc := ⟨.hbm, 101, rfl⟩
abbrev main_cst_14 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_15 : Ref sig .tc := ⟨.hbm, 106, rfl⟩
abbrev main_v77 : Ref sig .tc := ⟨.hbm, 107, rfl⟩
abbrev main_v78 : Ref sig .tc := ⟨.hbm, 108, rfl⟩
abbrev main_cst_16 : Ref sig .tc := ⟨.hbm, 109, rfl⟩
abbrev main_v79 : Ref sig .tc := ⟨.hbm, 110, rfl⟩
abbrev main_v80 : Ref sig .tc := ⟨.hbm, 111, rfl⟩
abbrev main_cst_17 : Ref sig .tc := ⟨.hbm, 112, rfl⟩
abbrev main_call2_v0 : Ref sig .tc := ⟨.hbm, 113, rfl⟩
abbrev main_call2_v1 : Ref sig .tc := ⟨.hbm, 114, rfl⟩
abbrev main_v81 : Ref sig .tc := ⟨.hbm, 115, rfl⟩
abbrev main_c_18 : Ref sig .tc := ⟨.hbm, 116, rfl⟩
abbrev main_v82 : Ref sig .tc := ⟨.hbm, 117, rfl⟩
abbrev main_v83 : Ref sig .tc := ⟨.hbm, 118, rfl⟩
abbrev main_c_19 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_c_20 : Ref sig .tc := ⟨.hbm, 125, rfl⟩
abbrev main_v89 : Ref sig .tc := ⟨.hbm, 126, rfl⟩
abbrev main_v90 : Ref sig .tc := ⟨.hbm, 127, rfl⟩
abbrev main_c_21 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_c_22 : Ref sig .tc := ⟨.hbm, 136, rfl⟩
abbrev main_v98 : Ref sig .tc := ⟨.hbm, 137, rfl⟩
abbrev main_v99 : Ref sig .tc := ⟨.hbm, 138, rfl⟩
abbrev main_c_23 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_24 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_call3_cst : Ref sig .tc := ⟨.hbm, 155, rfl⟩
abbrev main_call3_v0 : Ref sig .tc := ⟨.hbm, 156, rfl⟩
abbrev main_v114 : Ref sig .tc := ⟨.hbm, 157, rfl⟩
abbrev main_v115 : Ref sig .tc := ⟨.hbm, 158, rfl⟩
abbrev main_c_25 : Ref sig .tc := ⟨.hbm, 159, rfl⟩
abbrev main_v116 : Ref sig .tc := ⟨.hbm, 160, rfl⟩
abbrev main_v117 : Ref sig .tc := ⟨.hbm, 161, rfl⟩
abbrev main_c_26 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_cst_27 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  transposes_S64x256_p1_0_S256x64 : S64x256.Transposes [1, 0] S256x64
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x64_S5000x64_1_0_0_1_n_n_wf : DotDims.WF S5000x256 S256x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S100000x256.size a
  hwx2_0 : ∀ i : grid2.Coords, EltTy.bits .f32 = 32 ∨ (Rect.block (s := S100000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x256.size a ≤ S64x256.size a
  hwx2_1 : ∀ i : grid2.Coords, EltTy.bits .f32 = 32 ∨ (Rect.block (s := S64x256) S64x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg2) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v97) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v114) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v115) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S64x256 : Shape := ⟨2, ![64, 256]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S256x64 : Shape := ⟨2, ![256, 64]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 252
  | .vmem => 0
  | .smem => 0
  | _ => 0

abbrev hbmTy0_0 (i : Nat) : BufTy := match i % 128 with
  | 0 => ⟨S100000x256, .f32⟩
  | 1 => ⟨S2x1600000, .i32⟩
  | 2 => ⟨S100000x256, .f32⟩
  | 3 => ⟨S2x1600000, .i32⟩
  | 4 => ⟨S64x256, .f32⟩
  | 5 => ⟨S64, .f32⟩
  | 6 => ⟨S64x64, .f32⟩
  | 7 => ⟨S64, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S256x64, .f32⟩
  | 51 => ⟨S100000x64, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x64, .f32⟩
  | 61 => ⟨S1700000x1, .f32⟩
  | 62 => ⟨S1700000x64, .f32⟩
  | 63 => ⟨S1700000x64, .f32⟩
  | 64 => ⟨S_, .f32⟩
  | 65 => ⟨S100000x64, .f32⟩
  | 66 => ⟨S1700000x1, .i32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S_, .f32⟩
  | 75 => ⟨S1700000, .f32⟩
  | 76 => ⟨S_, .f32⟩
  | 77 => ⟨S100000, .f32⟩
  | 78 => ⟨S1700000x1, .i32⟩
  | 79 => ⟨S100000, .f32⟩
  | 80 => ⟨S_, .f32⟩
  | 81 => ⟨S100000, .f32⟩
  | 82 => ⟨S100000, .i1⟩
  | 83 => ⟨S_, .f32⟩
  | 84 => ⟨S100000, .f32⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S1700000, .f32⟩
  | 109 => ⟨S64x64, .f32⟩
  | 110 => ⟨S100000x64, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000x64, .f32⟩
  | 120 => ⟨S1700000x1, .f32⟩
  | 121 => ⟨S1700000x64, .f32⟩
  | 122 => ⟨S1700000x64, .f32⟩
  | 123 => ⟨S_, .f32⟩
  | 124 => ⟨S100000x64, .f32⟩
  | 125 => ⟨S1700000x1, .i32⟩
  | 126 => ⟨S100000x64, .f32⟩
  | 127 => ⟨S1x64, .f32⟩
  | _ => ⟨S100000x256, .f32⟩

abbrev hbmTy0_1 (i : Nat) : BufTy := match i % 128 with
  | 0 => ⟨S100000x64, .f32⟩
  | 1 => ⟨S100000x64, .f32⟩
  | 2 => ⟨S100000, .i32⟩
  | 3 => ⟨S1x1600000, .i32⟩
  | 4 => ⟨S1600000, .i32⟩
  | 5 => ⟨S1700000, .i32⟩
  | 6 => ⟨S1x1600000, .i32⟩
  | 7 => ⟨S1600000, .i32⟩
  | 8 => ⟨S1700000, .i32⟩
  | 9 => ⟨S_, .f32⟩
  | 10 => ⟨S1700000, .f32⟩
  | 11 => ⟨S_, .f32⟩
  | 12 => ⟨S100000, .f32⟩
  | 13 => ⟨S1700000x1, .i32⟩
  | 14 => ⟨S100000, .f32⟩
  | 15 => ⟨S_, .f32⟩
  | 16 => ⟨S100000, .f32⟩
  | 17 => ⟨S100000, .i1⟩
  | 18 => ⟨S_, .f32⟩
  | 19 => ⟨S100000, .f32⟩
  | 20 => ⟨S100000, .f32⟩
  | 21 => ⟨S_, .f32⟩
  | 22 => ⟨S_, .f32⟩
  | 23 => ⟨S100000, .f32⟩
  | 24 => ⟨S100000, .f32⟩
  | 25 => ⟨S_, .i32⟩
  | 26 => ⟨S1700000, .i32⟩
  | 27 => ⟨S1700000, .i1⟩
  | 28 => ⟨S_, .i32⟩
  | 29 => ⟨S1700000, .i32⟩
  | 30 => ⟨S1700000, .i32⟩
  | 31 => ⟨S1700000, .i32⟩
  | 32 => ⟨S1700000x1, .i32⟩
  | 33 => ⟨S1700000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S1700000, .f32⟩
  | 44 => ⟨S256x64, .f32⟩
  | 45 => ⟨S100000x64, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000x64, .f32⟩
  | 55 => ⟨S1700000x1, .f32⟩
  | 56 => ⟨S1700000x64, .f32⟩
  | 57 => ⟨S1700000x64, .f32⟩
  | 58 => ⟨S_, .f32⟩
  | 59 => ⟨S100000x64, .f32⟩
  | 60 => ⟨S1700000x1, .i32⟩
  | 61 => ⟨S100000x64, .f32⟩
  | 62 => ⟨S1x64, .f32⟩
  | 63 => ⟨S100000x64, .f32⟩
  | 64 => ⟨S100000x64, .f32⟩
  | 65 => ⟨S_, .f32⟩
  | 66 => ⟨S100000x64, .f32⟩
  | 67 => ⟨S100000x64, .f32⟩
  | 68 => ⟨S_, .f32⟩
  | 69 => ⟨S1700000, .f32⟩
  | 70 => ⟨S_, .f32⟩
  | 71 => ⟨S100000, .f32⟩
  | 72 => ⟨S1700000x1, .i32⟩
  | 73 => ⟨S100000, .f32⟩
  | 74 => ⟨S_, .f32⟩
  | 75 => ⟨S100000, .f32⟩
  | 76 => ⟨S100000, .i1⟩
  | 77 => ⟨S_, .f32⟩
  | 78 => ⟨S100000, .f32⟩
  | 79 => ⟨S100000, .f32⟩
  | 80 => ⟨S_, .f32⟩
  | 81 => ⟨S_, .f32⟩
  | 82 => ⟨S100000, .f32⟩
  | 83 => ⟨S100000, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S1700000, .f32⟩
  | 103 => ⟨S64x64, .f32⟩
  | 104 => ⟨S100000x64, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000x64, .f32⟩
  | 114 => ⟨S1700000x1, .f32⟩
  | 115 => ⟨S1700000x64, .f32⟩
  | 116 => ⟨S1700000x64, .f32⟩
  | 117 => ⟨S_, .f32⟩
  | 118 => ⟨S100000x64, .f32⟩
  | 119 => ⟨S1700000x1, .i32⟩
  | 120 => ⟨S100000x64, .f32⟩
  | 121 => ⟨S1x64, .f32⟩
  | 122 => ⟨S100000x64, .f32⟩
  | 123 => ⟨S100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_cst_11 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_12 : Ref sig .tc := ⟨.hbm, 80, rfl⟩
abbrev main_v54 : Ref sig .tc := ⟨.hbm, 81, rfl⟩
abbrev main_v55 : Ref sig .tc := ⟨.hbm, 82, rfl⟩
abbrev main_cst_13 : Ref sig .tc := ⟨.hbm, 83, rfl⟩
abbrev main_v56 : Ref sig .tc := ⟨.hbm, 84, rfl⟩
abbrev main_v57 : Ref sig .tc := ⟨.hbm, 85, rfl⟩
abbrev main_cst_14 : Ref sig .tc := ⟨.hbm, 86, rfl⟩
abbrev main_call2_v0 : Ref sig .tc := ⟨.hbm, 87, rfl⟩
abbrev main_call2_v1 : Ref sig .tc := ⟨.hbm, 88, rfl⟩
abbrev main_v58 : Ref sig .tc := ⟨.hbm, 89, rfl⟩
abbrev main_c_15 : Ref sig .tc := ⟨.hbm, 90, rfl⟩
abbrev main_v59 : Ref sig .tc := ⟨.hbm, 91, rfl⟩
abbrev main_v60 : Ref sig .tc := ⟨.hbm, 92, rfl⟩
abbrev main_c_16 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_c_17 : Ref sig .tc := ⟨.hbm, 99, rfl⟩
abbrev main_v66 : Ref sig .tc := ⟨.hbm, 100, rfl⟩
abbrev main_v67 : Ref sig .tc := ⟨.hbm, 101, rfl⟩
abbrev main_c_18 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_c_19 : Ref sig .tc := ⟨.hbm, 111, rfl⟩
abbrev main_v76 : Ref sig .tc := ⟨.hbm, 112, rfl⟩
abbrev main_v77 : Ref sig .tc := ⟨.hbm, 113, rfl⟩
abbrev main_c_20 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_21 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_22 : Ref sig .tc := ⟨.hbm, 137, rfl⟩
abbrev main_v99 : Ref sig .tc := ⟨.hbm, 138, rfl⟩
abbrev main_cst_23 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_24 : Ref sig .tc := ⟨.hbm, 143, rfl⟩
abbrev main_v103 : Ref sig .tc := ⟨.hbm, 144, rfl⟩
abbrev main_v104 : Ref sig .tc := ⟨.hbm, 145, rfl⟩
abbrev main_cst_25 : Ref sig .tc := ⟨.hbm, 146, rfl⟩
abbrev main_v105 : Ref sig .tc := ⟨.hbm, 147, rfl⟩
abbrev main_v106 : Ref sig .tc := ⟨.hbm, 148, rfl⟩
abbrev main_cst_26 : Ref sig .tc := ⟨.hbm, 149, rfl⟩
abbrev main_call3_v0 : Ref sig .tc := ⟨.hbm, 150, rfl⟩
abbrev main_call3_v1 : Ref sig .tc := ⟨.hbm, 151, rfl⟩
abbrev main_v107 : Ref sig .tc := ⟨.hbm, 152, rfl⟩
abbrev main_c_27 : Ref sig .tc := ⟨.hbm, 153, rfl⟩
abbrev main_v108 : Ref sig .tc := ⟨.hbm, 154, rfl⟩
abbrev main_v109 : Ref sig .tc := ⟨.hbm, 155, rfl⟩
abbrev main_c_28 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_c_29 : Ref sig .tc := ⟨.hbm, 162, rfl⟩
abbrev main_v115 : Ref sig .tc := ⟨.hbm, 163, rfl⟩
abbrev main_v116 : Ref sig .tc := ⟨.hbm, 164, rfl⟩
abbrev main_c_30 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_c_31 : Ref sig .tc := ⟨.hbm, 174, rfl⟩
abbrev main_v125 : Ref sig .tc := ⟨.hbm, 175, rfl⟩
abbrev main_v126 : Ref sig .tc := ⟨.hbm, 176, rfl⟩
abbrev main_c_32 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_cst_33 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_call4_cst : Ref sig .tc := ⟨.hbm, 193, rfl⟩
abbrev main_call4_v0 : Ref sig .tc := ⟨.hbm, 194, rfl⟩
abbrev main_v141 : Ref sig .tc := ⟨.hbm, 195, rfl⟩
abbrev main_cst_34 : Ref sig .tc := ⟨.hbm, 196, rfl⟩
abbrev main_v142 : Ref sig .tc := ⟨.hbm, 197, rfl⟩
abbrev main_cst_35 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_cst_36 : Ref sig .tc := ⟨.hbm, 202, rfl⟩
abbrev main_v146 : Ref sig .tc := ⟨.hbm, 203, rfl⟩
abbrev main_v147 : Ref sig .tc := ⟨.hbm, 204, rfl⟩
abbrev main_cst_37 : Ref sig .tc := ⟨.hbm, 205, rfl⟩
abbrev main_v148 : Ref sig .tc := ⟨.hbm, 206, rfl⟩
abbrev main_v149 : Ref sig .tc := ⟨.hbm, 207, rfl⟩
abbrev main_cst_38 : Ref sig .tc := ⟨.hbm, 208, rfl⟩
abbrev main_call5_v0 : Ref sig .tc := ⟨.hbm, 209, rfl⟩
abbrev main_call5_v1 : Ref sig .tc := ⟨.hbm, 210, rfl⟩
abbrev main_v150 : Ref sig .tc := ⟨.hbm, 211, rfl⟩
abbrev main_c_39 : Ref sig .tc := ⟨.hbm, 212, rfl⟩
abbrev main_v151 : Ref sig .tc := ⟨.hbm, 213, rfl⟩
abbrev main_v152 : Ref sig .tc := ⟨.hbm, 214, rfl⟩
abbrev main_c_40 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_c_41 : Ref sig .tc := ⟨.hbm, 221, rfl⟩
abbrev main_v158 : Ref sig .tc := ⟨.hbm, 222, rfl⟩
abbrev main_v159 : Ref sig .tc := ⟨.hbm, 223, rfl⟩
abbrev main_c_42 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_c_43 : Ref sig .tc := ⟨.hbm, 233, rfl⟩
abbrev main_v168 : Ref sig .tc := ⟨.hbm, 234, rfl⟩
abbrev main_v169 : Ref sig .tc := ⟨.hbm, 235, rfl⟩
abbrev main_c_44 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_cst_45 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S64x256_S256x64_1_0 : S64x256.Transposes [1, 0] S256x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S64x64_S64x64_1_0 : S64x64.Transposes [1, 0] S64x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x64_S100000x64_1_0_0_1_n_n_wf : DotDims.WF S100000x256 S256x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The whole program's run with its two results named.

  The program is fifteen stretches: host operations, then a node-feature transform, four times over, then a last
  stretch of host operations. Every weakly fair execution runs them in order; the buffers' contents at each boundary
  are a fold from the launch memory (a stretch of host operations rewrites the buffers it writes, a transform leaves
  its result array at what its twenty write-backs leave and every other buffer as it was). At the end every buffer
  of the program's tensor values holds the last fold's contents — the two results among them — and the arguments are
  as launched.
-/
import proofs.«115272_j58093727646297_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the two result buffers at the last boundary's
    contents and the argument arrays as launched. -/
theorem run_results : θ_run defs (onTc (τ := τ) (main (F := F))) ⟨m, fun _ => 0, ρ⟩ (fun r => ∀ c : Dev nD,
      r.2.mem ((c.tc : Thread nD τ).loc main_v65) = W15 m ρ c (Proc.devRef .tc main_v65)
      ∧ r.2.mem ((c.tc : Thread nD τ).loc main_v131) = W15 m ρ c (Proc.devRef .tc main_v131)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v65 (by decide)),
       h c _ (mem_uc main_v131 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c)⟩)

end Cert.KernelIdeal.Whole

end
-- ==== Proof.MatmulIdx.lean ====
/-
  One node-feature transform read at an index, on the extended reals.

  The kernel body multiplies a block of 5000 rows by the transposed weight table into a zero accumulator; a change of
  float format is the identity on the extended reals, so entry (p, q) of the block it stores is the sum over k of
  x[p, k] · w[q, k]. The reference's x @ w.T is a transpose followed by a contraction, and its entry (i, j) is the same
  sum over k of x[i, k] · w[j, k]. Both are stated here over explicit coordinates, for the two widths of the network
  (256 input features, 64 hidden features).
-/
import proofs.«115272_j58093727646297_1_alg».proof.Proof.Gen.KernelIdeal.Skeleton
import proofs.«115272_j58093727646297_1_alg».proof.Proof.Gen.ReferenceIdeal
import Idealize.ShloMosaic.Lib.ValueIdx
import Idealize.ShloMosaic.Lib.Pipeline.Value
import Idealize.ShloMosaic.PureOps.Ideal.Laws

noncomputable section

open scoped BigOperators

/-! ## The kernel body's products -/

namespace Cert.KernelIdeal.Lin

open Idealize.ShloMosaic Idealize.ShloMosaic.ValueIdx Cert.KernelIdeal Cert.KernelIdeal.Gen

theorem k256_lhs0 (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
theorem k256_rhs1 (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- Entry (p, q) of the block the 256-wide body stores: row p of the loaded rows against row q of the weight table. -/
theorem pay256_apply (v0 : Vec Ideal S5000x256 .f32) (v2 : Vec Ideal S64x256 .f32) (p : Fin 5000) (q : Fin 64) :
    k0_pay1 (F := Ideal) v0 v2 (ix2 p q) = ∑ k : Fin 256, v0 (ix2 p k) * v2 (ix2 q k) := by
  unfold k0_pay1
  simp only [matmul, shapeCast_self]
  rw [Ideal.matmul_constant_zero_apply, ← Equiv.sum_comp (contrEquiv1 dot_S5000x256_S256x64_S5000x64_1_0_0_1_n_n 256 rfl rfl).symm]
  refine Finset.sum_congr rfl fun k _ => ?_
  have hk := contrEquiv1_symm_val dot_S5000x256_S256x64_S5000x64_1_0_0_1_n_n 256 rfl rfl k
  have el : dot_S5000x256_S256x64_S5000x64_1_0_0_1_n_n.lhsIdx (ix2 p q) ((contrEquiv1 dot_S5000x256_S256x64_S5000x64_1_0_0_1_n_n 256 rfl rfl).symm k) = ix2 p k := funext fun a => Fin.ext (by
    match a with
    | ⟨0, _⟩ => exact k256_lhs0 _ _
    | ⟨1, _⟩ => exact (dot_S5000x256_S256x64_S5000x64_1_0_0_1_n_n.lhsIdx_val_of_single rfl _ _).trans hk)
  have er : dot_S5000x256_S256x64_S5000x64_1_0_0_1_n_n.rhsIdx (ix2 p q) ((contrEquiv1 dot_S5000x256_S256x64_S5000x64_1_0_0_1_n_n 256 rfl rfl).symm k) = ix2 k q := funext fun a => Fin.ext (by
    match a with
    | ⟨0, _⟩ => exact (dot_S5000x256_S256x64_S5000x64_1_0_0_1_n_n.rhsIdx_val_of_single rfl _ _).trans hk
    | ⟨1, _⟩ => exact k256_rhs1 _ _)
  rw [el, er, transpose_apply [1, 0] _ transposes_S64x256_p1_0_S256x64 (ix2 k q) (ix2 q k) (fun b => match b with | ⟨0, _⟩ => rfl | ⟨1, _⟩ => rfl)]
  rfl

theorem k64_lhs0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem k64_rhs1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry (p, q) of the block the 64-wide body stores: row p of the loaded rows against row q of the weight table. -/
theorem pay64_apply (v0 : Vec Ideal S5000x64 .f32) (v2 : Vec Ideal S64x64 .f32) (p : Fin 5000) (q : Fin 64) :
    k1_pay1 (F := Ideal) v0 v2 (ix2 p q) = ∑ k : Fin 64, v0 (ix2 p k) * v2 (ix2 q k) := by
  unfold k1_pay1
  simp only [matmul, shapeCast_self]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact k64_lhs0 _ _
    | ⟨1, _⟩ => exact (dot_S5000x64_S64x64_S5000x64_1_0_0_1_n_n.lhsIdx_val_of_single rfl _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (dot_S5000x64_S64x64_S5000x64_1_0_0_1_n_n.rhsIdx_val_of_single rfl _ _).trans hk
    | ⟨1, _⟩ => exact k64_rhs1 _ _)
  rw [el, er, transpose_apply [1, 0] _ transposes_S64x64_p1_0_S64x64 (ix2 k q) (ix2 q k) (fun b => match b with | ⟨0, _⟩ => rfl | ⟨1, _⟩ => rfl)]
  rfl

/-- The second graph's transforms run the same two bodies. -/
theorem pay2_eq : @k2_pay1 = @k0_pay1 := rfl
theorem pay3_eq : @k3_pay1 = @k1_pay1 := rfl

end Cert.KernelIdeal.Lin

/-! ## The reference's products -/

namespace Cert.ReferenceIdeal.Lin

open Idealize.ShloMosaic Idealize.ShloMosaic.ValueIdx Cert.ReferenceIdeal Cert.ReferenceIdeal.Gen

/-- x @ w.T for 256 input features, as the reference computes it: a transpose of the weight table, then a contraction. -/
def lin256 (v0 : FVec Ideal S100000x256 .f32) (w : FVec Ideal S64x256 .f32) : FVec Ideal S100000x64 .f32 :=
  Host.dotGeneral (F := Ideal) (φ₁ := .f32) (φ₂ := .f32) dot_S100000x256_S256x64_S100000x64_1_0_0_1_n_n none v0 (transpose S256x64 [1, 0] w transposes_S64x256_S256x64_1_0)

/-- h @ w.T for 64 hidden features, as the reference computes it. -/
def lin64 (v0 : FVec Ideal S100000x64 .f32) (w : FVec Ideal S64x64 .f32) : FVec Ideal S100000x64 .f32 :=
  Host.dotGeneral (F := Ideal) (φ₁ := .f32) (φ₂ := .f32) dot_S100000x64_S64x64_S100000x64_1_0_0_1_n_n none v0 (transpose S64x64 [1, 0] w transposes_S64x64_S64x64_1_0)

theorem r256_lhs0 (i : S100000x64.Idx) (q : dot_S100000x256_S256x64_S100000x64_1_0_0_1_n_n.contr.Idx) :
    (dot_S100000x256_S256x64_S100000x64_1_0_0_1_n_n.lhsIdx i q 0).val = (i 0).val := by
  unfold DotDims.lhsIdx
  rw [dif_neg (show ¬(0 : Fin S100000x256.rank) ∈ dot_S100000x256_S256x64_S100000x64_1_0_0_1_n_n.lhsBatch by decide), dif_pos (show (0 : Fin S100000x256.rank) ∈ dot_S100000x256_S256x64_S100000x64_1_0_0_1_n_n.lhsNonContracting by decide)]
  rfl
theorem r256_rhs1 (i : S100000x64.Idx) (q : dot_S100000x256_S256x64_S100000x64_1_0_0_1_n_n.contr.Idx) :
    (dot_S100000x256_S256x64_S100000x64_1_0_0_1_n_n.rhsIdx i q 1).val = (i 1).val := by
  unfold DotDims.rhsIdx
  rw [dif_neg (show ¬(1 : Fin S256x64.rank) ∈ dot_S100000x256_S256x64_S100000x64_1_0_0_1_n_n.rhsBatch by decide), dif_pos (show (1 : Fin S256x64.rank) ∈ dot_S100000x256_S256x64_S100000x64_1_0_0_1_n_n.rhsNonContracting by decide)]
  rfl

/-- Entry (p, q) of x @ w.T is the sum over k of x[p, k] · w[q, k]. -/
theorem lin256_apply (v0 : FVec Ideal S100000x256 .f32) (w : FVec Ideal S64x256 .f32) (p : Fin 100000) (q : Fin 64) :
    lin256 v0 w (ix2 p q) = ∑ k : Fin 256, v0 (ix2 p k) * w (ix2 q k) := by
  unfold lin256
  simp only [Host.dotGeneral]
  rw [Ideal.dotGeneral_apply, ← Equiv.sum_comp (contrEquiv1 dot_S100000x256_S256x64_S100000x64_1_0_0_1_n_n 256 rfl rfl).symm]
  refine Finset.sum_congr rfl fun k _ => ?_
  have hk := contrEquiv1_symm_val dot_S100000x256_S256x64_S100000x64_1_0_0_1_n_n 256 rfl rfl k
  have el : dot_S100000x256_S256x64_S100000x64_1_0_0_1_n_n.lhsIdx (ix2 p q) ((contrEquiv1 dot_S100000x256_S256x64_S100000x64_1_0_0_1_n_n 256 rfl rfl).symm k) = ix2 p k := funext fun a => Fin.ext (by
    match a with
    | ⟨0, _⟩ => exact r256_lhs0 _ _
    | ⟨1, _⟩ => exact (dot_S100000x256_S256x64_S100000x64_1_0_0_1_n_n.lhsIdx_val_of_single rfl _ _).trans hk)
  have er : dot_S100000x256_S256x64_S100000x64_1_0_0_1_n_n.rhsIdx (ix2 p q) ((contrEquiv1 dot_S100000x256_S256x64_S100000x64_1_0_0_1_n_n 256 rfl rfl).symm k) = ix2 k q := funext fun a => Fin.ext (by
    match a with
    | ⟨0, _⟩ => exact (dot_S100000x256_S256x64_S100000x64_1_0_0_1_n_n.rhsIdx_val_of_single rfl _ _).trans hk
    | ⟨1, _⟩ => exact r256_rhs1 _ _)
  rw [el, er, transpose_apply [1, 0] w transposes_S64x256_S256x64_1_0 (ix2 k q) (ix2 q k) (fun b => match b with | ⟨0, _⟩ => rfl | ⟨1, _⟩ => rfl)]

theorem r64_lhs0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem r64_rhs1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-- Entry (p, q) of h @ w.T is the sum over k of h[p, k] · w[q, k]. -/
theorem lin64_apply (v0 : FVec Ideal S100000x64 .f32) (w : FVec Ideal S64x64 .f32) (p : Fin 100000) (q : Fin 64) :
    lin64 v0 w (ix2 p q) = ∑ k : Fin 64, v0 (ix2 p k) * w (ix2 q k) := by
  unfold lin64
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 p q) ((contrEquiv1 dot_S100000x64_S64x64_S100000x64_1_0_0_1_n_n 64 rfl rfl).symm k) = ix2 p k := funext fun a => Fin.ext (by
    match a with
    | ⟨0, _⟩ => exact r64_lhs0 _ _
    | ⟨1, _⟩ => exact (dot_S100000x64_S64x64_S100000x64_1_0_0_1_n_n.lhsIdx_val_of_single rfl _ _).trans hk)
  have er : dot_S100000x64_S64x64_S100000x64_1_0_0_1_n_n.rhsIdx (ix2 p q) ((contrEquiv1 dot_S100000x64_S64x64_S100000x64_1_0_0_1_n_n 64 rfl rfl).symm k) = ix2 k q := funext fun a => Fin.ext (by
    match a with
    | ⟨0, _⟩ => exact (dot_S100000x64_S64x64_S100000x64_1_0_0_1_n_n.rhsIdx_val_of_single rfl _ _).trans hk
    | ⟨1, _⟩ => exact r64_rhs1 _ _)
  rw [el, er, transpose_apply [1, 0] w transposes_S64x64_S64x64_1_0 (ix2 k q) (ix2 q k) (fun b => match b with | ⟨0, _⟩ => rfl | ⟨1, _⟩ => rfl)]

end Cert.ReferenceIdeal.Lin

end
-- ==== Proof.Blocks.lean ====
/-
  What each of the four node-feature transforms leaves in its result array.

  A transform's grid has 20 points; point t loads rows 5000·t … 5000·t + 4999 of the node features and the whole weight
  table, and writes back the same rows of the result. Entry (p, q) of the block it writes is the sum over k of
  x[5000·t + p, k] · w[q, k], which is entry (5000·t + p, q) of x @ w.T. The twenty blocks tile the result array, so
  after the last point the array is x @ w.T of the two operand arrays as the transform found them — stated with the
  reference's own contraction as the function, for any contents of the buffers at entry.
-/
import proofs.«115272_j58093727646297_1_alg».proof.Proof.Gen.KernelIdeal.Frame
import proofs.«115272_j58093727646297_1_alg».proof.Proof.MatmulIdx
import Idealize.ShloMosaic.Lib.Pipeline.Value
import Idealize.ShloMosaic.Lib.Tactic

set_option maxRecDepth 16384

noncomputable section

open scoped BigOperators

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Lin
open Cert.ReferenceIdeal.Lin (lin256 lin64 lin256_apply lin64_apply)

variable (V : (c : Dev nD) → (b : Ref sig .tc) → Buf (Elt Ideal) ((c : Thread nD τ).loc b))

theorem hz : (![0, 0] : Fin 2 → Nat) = fun _ => 0 := funext fun a => by fin_cases a <;> rfl

/-! ## Transform 0 -/

/-- The printed block positions over the grid: the rows move with the point, everything else stays at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt_N0 (t : Fin cfg0.N) : t.val < 20 := lt_of_lt_of_eq t.isLt (N_0 : cfg0.N = 20)

/-- Point t's block of loaded rows, entry (p, k), is row 5000·t + p of the left operand as the transform found it. -/
theorem rows0_apply (c : Dev nD) (t : Fin cfg0.N) (p : Fin 5000) (k : Fin 256) (r : Fin 100000) (hr : r.val = t.val * 5000 + p.val) :
    (iblk0 V c 0 t : S5000x256.Idx → EReal) (ix2 p k) = (V c (Pipeline.arrRef spec0 0) : S100000x256.Idx → EReal) (ix2 r k) := by
  obtain ⟨e0, e1, -, -, -, -⟩ := idx_facts0 t
  unfold iblk0
  rw [View.read_apply]
  refine congrArg (V c (Pipeline.arrRef spec0 0) : S100000x256.Idx → EReal) (funext fun a => Fin.ext ?_)
  match a with
  | ⟨0, _⟩ => show win0_0.index t (0 : Fin 2) * 5000 + 1 * p.val = r.val; omega
  | ⟨1, _⟩ => show win0_0.index t (1 : Fin 2) * 256 + 1 * k.val = k.val; omega

/-- Every point's block of the weight table is the whole table. -/
theorem table0_apply (c : Dev nD) (t : Fin cfg0.N) (q : Fin 64) (k : Fin 256) :
    (iblk0 V c 1 t : S64x256.Idx → EReal) (ix2 q k) = (V c (Pipeline.arrRef spec0 1) : S64x256.Idx → EReal) (ix2 q k) := by
  obtain ⟨-, -, e2, e3, -, -⟩ := idx_facts0 t
  unfold iblk0
  rw [View.read_apply]
  refine congrArg (V c (Pipeline.arrRef spec0 1) : S64x256.Idx → EReal) (funext fun a => Fin.ext ?_)
  match a with
  | ⟨0, _⟩ => show win0_1.index t (0 : Fin 2) * 64 + 1 * q.val = q.val; omega
  | ⟨1, _⟩ => show win0_1.index t (1 : Fin 2) * 256 + 1 * k.val = k.val; omega

/-- What point t writes back is block t of the product of the two operand arrays. -/
theorem flushed0_eq (c : Dev nD) (t : Fin cfg0.N) :
    (dat0 V c).flushed 2 t = ((cfg0.win 2).blk t).view.read (Elt Ideal) (lin256 (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S5000x256) hz, View.ld_unit_zero (S := S64x256) hz]
  obtain ⟨-, -, -, -, e4, e5⟩ := idx_facts0 t
  have ht := lt_N0 t
  funext y
  obtain ⟨p, q, rfl⟩ : ∃ (p : Fin 5000) (q : Fin 64), y = ix2 p q := ⟨y 0, y 1, eq_ix2 y⟩
  have hp := p.isLt
  refine (pay256_apply (iblk0 V c 0 t) (iblk0 V c 1 t) p q).trans ?_
  rw [View.read_apply]
  have hemb : ((cfg0.win 2).blk t).view.emb (ix2 p q) = (ix2 (⟨t.val * 5000 + p.val, by omega⟩ : Fin 100000) q : S100000x64.Idx) := funext fun a => Fin.ext (by
    match a with
    | ⟨0, _⟩ => show win0_2.index t (0 : Fin 2) * 5000 + 1 * p.val = t.val * 5000 + p.val; omega
    | ⟨1, _⟩ => show win0_2.index t (1 : Fin 2) * 64 + 1 * q.val = q.val; omega)
  rw [hemb, lin256_apply]
  refine Finset.sum_congr rfl fun k _ => ?_
  rw [rows0_apply V c t p k ⟨t.val * 5000 + p.val, by omega⟩ rfl, table0_apply V c t q k]

/-- An index of the result array is in point t's block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v31).slice (win0_2.rect t)).set ↔ _
  rw [View.set_slice_whole, Rect.mem_set_unit]
  exact Iff.rfl

/-- Row r of the result lies in the block of point r / 5000. -/
theorem cover0 (i : S100000x64.Idx) : ∃ t : Fin cfg0.N, (cfg0.win 2).flush t = true ∧ i ∈ ((cfg0.win 2).blk t).view.set := by
  have hN : grid0.N = 20 := N_0
  have hi0 : (i 0).val < 100000 := (i 0).isLt
  have hi1 : (i 1).val < 64 := (i 1).isLt
  let t : Fin cfg0.N := ⟨(i 0).val / 5000, by show _ < grid0.N; omega⟩
  obtain ⟨-, -, -, -, e4, e5⟩ := idx_facts0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The result array after the last point: the product of the operand arrays as the transform found them. -/
theorem final0 (c : Dev nD) :
    (dat0 V c).arrAt 2 cfg0.N = lin256 (V c (Pipeline.arrRef spec0 0)) (V c (Pipeline.arrRef spec0 1)) :=
  (dat0 V c).arrAt_eq_of_cover 2 _ (fun t _ => flushed0_eq V c t) cover0

/-! ## Transform 1 -/

/-- The printed block positions over the grid: the rows move with the point, everything else stays at block 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem lt_N1 (t : Fin cfg1.N) : t.val < 20 := lt_of_lt_of_eq t.isLt (N_1 : cfg1.N = 20)

/-- Point t's block of loaded rows, entry (p, k), is row 5000·t + p of the left operand as the transform found it. -/
theorem rows1_apply (c : Dev nD) (t : Fin cfg1.N) (p : Fin 5000) (k : Fin 64) (r : Fin 100000) (hr : r.val = t.val * 5000 + p.val) :
    (iblk1 V c 0 t : S5000x64.Idx → EReal) (ix2 p k) = (V c (Pipeline.arrRef spec1 0) : S100000x64.Idx → EReal) (ix2 r k) := by
  obtain ⟨e0, e1, -, -, -, -⟩ := idx_facts1 t
  unfold iblk1
  rw [View.read_apply]
  refine congrArg (V c (Pipeline.arrRef spec1 0) : S100000x64.Idx → EReal) (funext fun a => Fin.ext ?_)
  match a with
  | ⟨0, _⟩ => show win1_0.index t (0 : Fin 2) * 5000 + 1 * p.val = r.val; omega
  | ⟨1, _⟩ => show win1_0.index t (1 : Fin 2) * 64 + 1 * k.val = k.val; omega

/-- Every point's block of the weight table is the whole table. -/
theorem table1_apply (c : Dev nD) (t : Fin cfg1.N) (q : Fin 64) (k : Fin 64) :
    (iblk1 V c 1 t : S64x64.Idx → EReal) (ix2 q k) = (V c (Pipeline.arrRef spec1 1) : S64x64.Idx → EReal) (ix2 q k) := by
  obtain ⟨-, -, e2, e3, -, -⟩ := idx_facts1 t
  unfold iblk1
  rw [View.read_apply]
  refine congrArg (V c (Pipeline.arrRef spec1 1) : S64x64.Idx → EReal) (funext fun a => Fin.ext ?_)
  match a with
  | ⟨0, _⟩ => show win1_1.index t (0 : Fin 2) * 64 + 1 * q.val = q.val; omega
  | ⟨1, _⟩ => show win1_1.index t (1 : Fin 2) * 64 + 1 * k.val = k.val; omega

/-- What point t writes back is block t of the product of the two operand arrays. -/
theorem flushed1_eq (c : Dev nD) (t : Fin cfg1.N) :
    (dat1 V c).flushed 2 t = ((cfg1.win 2).blk t).view.read (Elt Ideal) (lin64 (V c (Pipeline.arrRef spec1 0)) (V c (Pipeline.arrRef spec1 1))) := by
  show (cfg1.win 2).cut (grid1.coords t) ((dat1 V c).after 2 t) = _
  rw [after1_2]
  unfold out1_2
  rw [View.canon_unit_zero hz]
  simp only [View.ld_unit_zero (S := S5000x64) hz, View.ld_unit_zero (S := S64x64) hz]
  obtain ⟨-, -, -, -, e4, e5⟩ := idx_facts1 t
  have ht := lt_N1 t
  funext y
  obtain ⟨p, q, rfl⟩ : ∃ (p : Fin 5000) (q : Fin 64), y = ix2 p q := ⟨y 0, y 1, eq_ix2 y⟩
  have hp := p.isLt
  refine (pay64_apply (iblk1 V c 0 t) (iblk1 V c 1 t) p q).trans ?_
  rw [View.read_apply]
  have hemb : ((cfg1.win 2).blk t).view.emb (ix2 p q) = (ix2 (⟨t.val * 5000 + p.val, by omega⟩ : Fin 100000) q : S100000x64.Idx) := funext fun a => Fin.ext (by
    match a with
    | ⟨0, _⟩ => show win1_2.index t (0 : Fin 2) * 5000 + 1 * p.val = t.val * 5000 + p.val; omega
    | ⟨1, _⟩ => show win1_2.index t (1 : Fin 2) * 64 + 1 * q.val = q.val; omega)
  rw [hemb, lin64_apply]
  refine Finset.sum_congr rfl fun k _ => ?_
  rw [rows1_apply V c t p k ⟨t.val * 5000 + p.val, by omega⟩ rfl, table1_apply V c t q k]

/-- An index of the result array is in point t's block iff each coordinate is in the block's range on its axis. -/
theorem mem_blk1 (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v49).slice (win1_2.rect t)).set ↔ _
  rw [View.set_slice_whole, Rect.mem_set_unit]
  exact Iff.rfl

/-- Row r of the result lies in the block of point r / 5000. -/
theorem cover1 (i : S100000x64.Idx) : ∃ t : Fin cfg1.N, (cfg1.win 2).flush t = true ∧ i ∈ ((cfg1.win 2).blk t).view.set := by
  have hN : grid1.N = 20 := N_1
  have hi0 : (i 0).val < 100000 := (i 0).isLt
  have hi1 : (i 1).val < 64 := (i 1).isLt
  let t : Fin cfg1.N := ⟨(i 0).val / 5000, by show _ < grid1.N; omega⟩
  obtain ⟨-, -, -, -, e4, e5⟩ := idx_facts1 t
  have ht : t.val = (i 0).val / 5000 := rfl
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The result array after the last point: the product of the operand arrays as the transform found them. -/
theorem final1 (c : Dev nD) :
    (dat1 V c).arrAt 2 cfg1.N = lin64 (V c (Pipeline.arrRef spec1 0)) (V c (Pipeline.arrRef spec1 1)) :=
  (dat1 V c).arrAt_eq_of_cover 2 _ (fun t _ => flushed1_eq V c t) cover1

/-! ## Transform 2 -/

/-- The printed block positions over the grid: the rows move with the point, everything else stays at block 0. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem lt_N2 (t : Fin cfg2.N) : t.val < 20 := lt_of_lt_of_eq t.isLt (N_2 : cfg2.N = 20)

/-- Point t's block of loaded rows, entry (p, k), is row 5000·t + p of the left operand as the transform found it. -/
theorem rows2_apply (c : Dev nD) (t : Fin cfg2.N) (p : Fin 5000) (k : Fin 256) (r : Fin 100000) (hr : r.val = t.val * 5000 + p.val) :
    (iblk2 V c 0 t : S5000x256.Idx → EReal) (ix2 p k) = (V c (Pipeline.arrRef spec2 0) : S100000x256.Idx → EReal) (ix2 r k) := by
  obtain ⟨e0, e1, -, -, -, -⟩ := idx_facts2 t
  unfold iblk2
  rw [View.read_apply]
  refine congrArg (V c (Pipeline.arrRef spec2 0) : S100000x256.Idx → EReal) (funext fun a => Fin.ext ?_)
  match a with
  | ⟨0, _⟩ => show win2_0.index t (0 : Fin 2) * 5000 + 1 * p.val = r.val; omega
  | ⟨1, _⟩ => show win2_0.index t (1 : Fin 2) * 256 + 1 * k.val = k.val; omega

/-- Every point's block of the weight table is the whole table. -/
theorem table2_apply (c : Dev nD) (t : Fin cfg2.N) (q : Fin 64) (k : Fin 256) :
    (iblk2 V c 1 t : S64x256.Idx → EReal) (ix2 q k) = (V c (Pipeline.arrRef spec2 1) : S64x256.Idx → EReal) (ix2 q k) := by
  obtain ⟨-, -, e2, e3, -, -⟩ := idx_facts2 t
  unfold iblk2
  rw [View.read_apply]
  refine congrArg (V c (Pipeline.arrRef spec2 1) : S64x256.Idx → EReal) (funext fun a => Fin.ext ?_)
  match a with
  | ⟨0, _⟩ => show win2_1.index t (0 : Fin 2) * 64 + 1 * q.val = q.val; omega
  | ⟨1, _⟩ => show win2_1.index t (1 : Fin 2) * 256 + 1 * k.val = k.val; omega

/-- What point t writes back is block t of the product of the two operand arrays. -/
theorem flushed2_eq (c : Dev nD) (t : Fin cfg2.N) :
    (dat2 V c).flushed 2 t = ((cfg2.win 2).blk t).view.read (Elt Ideal) (lin256 (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S5000x256) hz, View.ld_unit_zero (S := S64x256) hz]
  obtain ⟨-, -, -, -, e4, e5⟩ := idx_facts2 t
  have ht := lt_N2 t
  funext y
  obtain ⟨p, q, rfl⟩ : ∃ (p : Fin 5000) (q : Fin 64), y = ix2 p q := ⟨y 0, y 1, eq_ix2 y⟩
  have hp := p.isLt
  rw [pay2_eq]
  refine (pay256_apply (iblk2 V c 0 t) (iblk2 V c 1 t) p q).trans ?_
  rw [View.read_apply]
  have hemb : ((cfg2.win 2).blk t).view.emb (ix2 p q) = (ix2 (⟨t.val * 5000 + p.val, by omega⟩ : Fin 100000) q : S100000x64.Idx) := funext fun a => Fin.ext (by
    match a with
    | ⟨0, _⟩ => show win2_2.index t (0 : Fin 2) * 5000 + 1 * p.val = t.val * 5000 + p.val; omega
    | ⟨1, _⟩ => show win2_2.index t (1 : Fin 2) * 64 + 1 * q.val = q.val; omega)
  rw [hemb, lin256_apply]
  refine Finset.sum_congr rfl fun k _ => ?_
  rw [rows2_apply V c t p k ⟨t.val * 5000 + p.val, by omega⟩ rfl, table2_apply V c t q k]

/-- An index of the result array is in point t's block iff each coordinate is in the block's range on its axis. -/
theorem mem_blk2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v97).slice (win2_2.rect t)).set ↔ _
  rw [View.set_slice_whole, Rect.mem_set_unit]
  exact Iff.rfl

/-- Row r of the result lies in the block of point r / 5000. -/
theorem cover2 (i : S100000x64.Idx) : ∃ t : Fin cfg2.N, (cfg2.win 2).flush t = true ∧ i ∈ ((cfg2.win 2).blk t).view.set := by
  have hN : grid2.N = 20 := N_2
  have hi0 : (i 0).val < 100000 := (i 0).isLt
  have hi1 : (i 1).val < 64 := (i 1).isLt
  let t : Fin cfg2.N := ⟨(i 0).val / 5000, by show _ < grid2.N; omega⟩
  obtain ⟨-, -, -, -, e4, e5⟩ := idx_facts2 t
  have ht : t.val = (i 0).val / 5000 := rfl
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The result array after the last point: the product of the operand arrays as the transform found them. -/
theorem final2 (c : Dev nD) :
    (dat2 V c).arrAt 2 cfg2.N = lin256 (V c (Pipeline.arrRef spec2 0)) (V c (Pipeline.arrRef spec2 1)) :=
  (dat2 V c).arrAt_eq_of_cover 2 _ (fun t _ => flushed2_eq V c t) cover2

/-! ## Transform 3 -/

/-- The printed block positions over the grid: the rows move with the point, everything else stays at block 0. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem lt_N3 (t : Fin cfg3.N) : t.val < 20 := lt_of_lt_of_eq t.isLt (N_3 : cfg3.N = 20)

/-- Point t's block of loaded rows, entry (p, k), is row 5000·t + p of the left operand as the transform found it. -/
theorem rows3_apply (c : Dev nD) (t : Fin cfg3.N) (p : Fin 5000) (k : Fin 64) (r : Fin 100000) (hr : r.val = t.val * 5000 + p.val) :
    (iblk3 V c 0 t : S5000x64.Idx → EReal) (ix2 p k) = (V c (Pipeline.arrRef spec3 0) : S100000x64.Idx → EReal) (ix2 r k) := by
  obtain ⟨e0, e1, -, -, -, -⟩ := idx_facts3 t
  unfold iblk3
  rw [View.read_apply]
  refine congrArg (V c (Pipeline.arrRef spec3 0) : S100000x64.Idx → EReal) (funext fun a => Fin.ext ?_)
  match a with
  | ⟨0, _⟩ => show win3_0.index t (0 : Fin 2) * 5000 + 1 * p.val = r.val; omega
  | ⟨1, _⟩ => show win3_0.index t (1 : Fin 2) * 64 + 1 * k.val = k.val; omega

/-- Every point's block of the weight table is the whole table. -/
theorem table3_apply (c : Dev nD) (t : Fin cfg3.N) (q : Fin 64) (k : Fin 64) :
    (iblk3 V c 1 t : S64x64.Idx → EReal) (ix2 q k) = (V c (Pipeline.arrRef spec3 1) : S64x64.Idx → EReal) (ix2 q k) := by
  obtain ⟨-, -, e2, e3, -, -⟩ := idx_facts3 t
  unfold iblk3
  rw [View.read_apply]
  refine congrArg (V c (Pipeline.arrRef spec3 1) : S64x64.Idx → EReal) (funext fun a => Fin.ext ?_)
  match a with
  | ⟨0, _⟩ => show win3_1.index t (0 : Fin 2) * 64 + 1 * q.val = q.val; omega
  | ⟨1, _⟩ => show win3_1.index t (1 : Fin 2) * 64 + 1 * k.val = k.val; omega

/-- What point t writes back is block t of the product of the two operand arrays. -/
theorem flushed3_eq (c : Dev nD) (t : Fin cfg3.N) :
    (dat3 V c).flushed 2 t = ((cfg3.win 2).blk t).view.read (Elt Ideal) (lin64 (V c (Pipeline.arrRef spec3 0)) (V c (Pipeline.arrRef spec3 1))) := by
  show (cfg3.win 2).cut (grid3.coords t) ((dat3 V c).after 2 t) = _
  rw [after3_2]
  unfold out3_2
  rw [View.canon_unit_zero hz]
  simp only [View.ld_unit_zero (S := S5000x64) hz, View.ld_unit_zero (S := S64x64) hz]
  obtain ⟨-, -, -, -, e4, e5⟩ := idx_facts3 t
  have ht := lt_N3 t
  funext y
  obtain ⟨p, q, rfl⟩ : ∃ (p : Fin 5000) (q : Fin 64), y = ix2 p q := ⟨y 0, y 1, eq_ix2 y⟩
  have hp := p.isLt
  rw [pay3_eq]
  refine (pay64_apply (iblk3 V c 0 t) (iblk3 V c 1 t) p q).trans ?_
  rw [View.read_apply]
  have hemb : ((cfg3.win 2).blk t).view.emb (ix2 p q) = (ix2 (⟨t.val * 5000 + p.val, by omega⟩ : Fin 100000) q : S100000x64.Idx) := funext fun a => Fin.ext (by
    match a with
    | ⟨0, _⟩ => show win3_2.index t (0 : Fin 2) * 5000 + 1 * p.val = t.val * 5000 + p.val; omega
    | ⟨1, _⟩ => show win3_2.index t (1 : Fin 2) * 64 + 1 * q.val = q.val; omega)
  rw [hemb, lin64_apply]
  refine Finset.sum_congr rfl fun k _ => ?_
  rw [rows3_apply V c t p k ⟨t.val * 5000 + p.val, by omega⟩ rfl, table3_apply V c t q k]

/-- An index of the result array is in point t's block iff each coordinate is in the block's range on its axis. -/
theorem mem_blk3 (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v115).slice (win3_2.rect t)).set ↔ _
  rw [View.set_slice_whole, Rect.mem_set_unit]
  exact Iff.rfl

/-- Row r of the result lies in the block of point r / 5000. -/
theorem cover3 (i : S100000x64.Idx) : ∃ t : Fin cfg3.N, (cfg3.win 2).flush t = true ∧ i ∈ ((cfg3.win 2).blk t).view.set := by
  have hN : grid3.N = 20 := N_3
  have hi0 : (i 0).val < 100000 := (i 0).isLt
  have hi1 : (i 1).val < 64 := (i 1).isLt
  let t : Fin cfg3.N := ⟨(i 0).val / 5000, by show _ < grid3.N; omega⟩
  obtain ⟨-, -, -, -, e4, e5⟩ := idx_facts3 t
  have ht : t.val = (i 0).val / 5000 := rfl
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- The result array after the last point: the product of the operand arrays as the transform found them. -/
theorem final3 (c : Dev nD) :
    (dat3 V c).arrAt 2 cfg3.N = lin64 (V c (Pipeline.arrRef spec3 0)) (V c (Pipeline.arrRef spec3 1)) :=
  (dat3 V c).arrAt_eq_of_cover 2 _ (fun t _ => flushed3_eq V c t) cover3

end Cert.KernelIdeal.Blocks

end
-- ==== Proof.RegionOps.lean ====
/-
  Each node-feature transform as one host operation, and the whole program as one line of operations.

  A transform changes one buffer: its result array ends at x @ w.T of the two operand arrays as it found them, and
  every other buffer — its two operands among them — is as it was. That is exactly what one binary host operation
  writing that buffer from those two operands does. Replacing the four transforms by such operations turns the
  program's fifteen stretches into a single straight line of host operations from the launch memory, whose contents
  at any buffer can then be read off operation by operation.
-/
import proofs.«115272_j58093727646297_1_alg».proof.Proof.Gen.KernelIdeal.Frame
import proofs.«115272_j58093727646297_1_alg».proof.Proof.Blocks
import Idealize.ShloMosaic.Lib.StableHlo.Run

set_option maxRecDepth 16384

noncomputable section

namespace Cert.KernelIdeal.Line

open Idealize.ShloMosaic Idealize.ShloMosaic.TcCoe Idealize.SL.Sem Idealize.ShloMosaic.StableHlo
open Idealize.ShloMosaic.Pipeline (Dat)
open Cert.KernelIdeal Cert.KernelIdeal.Gen Cert.KernelIdeal.Blocks
open Cert.ReferenceIdeal.Lin (lin256 lin64)

variable (m : (ℓ : Loc nD τ sig) → Buf (Elt Ideal) ℓ) (ρ : Dev nD → PrngReg)

/-- Transform 0 as a host operation: its result buffer from its two operand buffers. -/
abbrev op0 : HloOp τ sig (Elt Ideal) :=
  StableHlo.binary main_arg0 main_arg4 main_v31 (lin256 : (⟨S100000x256, .f32⟩ : BufTy).Contents (Elt Ideal) → (⟨S64x256, .f32⟩ : BufTy).Contents (Elt Ideal) → (⟨S100000x64, .f32⟩ : BufTy).Contents (Elt Ideal))

/-- The buffers after transform 0 are the buffers before it with that one operation applied. -/
theorem W4_eq (c : Dev nD) : W4 (F := Ideal) m ρ c = (op0).result (W3 m ρ c) := by
  funext b
  by_cases hb : ∃ w, Proc.devRef .tc (Pipeline.arrRef spec0 w) = b
  · obtain ⟨w, rfl⟩ := hb
    rw [W4_arr]
    match w with
    | ⟨0, _⟩ =>
      refine (((dat0 (V3 m ρ) c).arrAt_in 0 rfl _).trans (A_eq0 (V3 m ρ) c 0)).trans ?_
      exact (StableHlo.binary_result_ne main_arg0 main_arg4 main_v31 _ _ _ _ (W3 m ρ c) (r := main_arg0) (by decide)).symm
    | ⟨1, _⟩ =>
      refine (((dat0 (V3 m ρ) c).arrAt_in 1 rfl _).trans (A_eq0 (V3 m ρ) c 1)).trans ?_
      exact (StableHlo.binary_result_ne main_arg0 main_arg4 main_v31 _ _ _ _ (W3 m ρ c) (r := main_arg4) (by decide)).symm
    | ⟨2, _⟩ =>
      refine (final0 (V3 m ρ) c).trans ?_
      exact (StableHlo.binary_result main_arg0 main_arg4 main_v31 _ _ _ _ (W3 m ρ c)).symm
  · have h1 : W4 m ρ c b = W3 m ρ c b := by unfold W4 Pipeline.withArrays; exact dif_neg hb
    rw [h1, HloOp.result_of_not_mem]
    rw [StableHlo.binary_writes, Finset.mem_singleton]
    intro e
    exact hb ⟨2, e.symm⟩

/-- Transform 1 as a host operation: its result buffer from its two operand buffers. -/
abbrev op1 : HloOp τ sig (Elt Ideal) :=
  StableHlo.binary main_v48 main_arg6 main_v49 (lin64 : (⟨S100000x64, .f32⟩ : BufTy).Contents (Elt Ideal) → (⟨S64x64, .f32⟩ : BufTy).Contents (Elt Ideal) → (⟨S100000x64, .f32⟩ : BufTy).Contents (Elt Ideal))

/-- The buffers after transform 1 are the buffers before it with that one operation applied. -/
theorem W7_eq (c : Dev nD) : W7 (F := Ideal) m ρ c = (op1).result (W6 m ρ c) := by
  funext b
  by_cases hb : ∃ w, Proc.devRef .tc (Pipeline.arrRef spec1 w) = b
  · obtain ⟨w, rfl⟩ := hb
    rw [W7_arr]
    match w with
    | ⟨0, _⟩ =>
      refine (((dat1 (V6 m ρ) c).arrAt_in 0 rfl _).trans (A_eq1 (V6 m ρ) c 0)).trans ?_
      exact (StableHlo.binary_result_ne main_v48 main_arg6 main_v49 _ _ _ _ (W6 m ρ c) (r := main_v48) (by decide)).symm
    | ⟨1, _⟩ =>
      refine (((dat1 (V6 m ρ) c).arrAt_in 1 rfl _).trans (A_eq1 (V6 m ρ) c 1)).trans ?_
      exact (StableHlo.binary_result_ne main_v48 main_arg6 main_v49 _ _ _ _ (W6 m ρ c) (r := main_arg6) (by decide)).symm
    | ⟨2, _⟩ =>
      refine (final1 (V6 m ρ) c).trans ?_
      exact (StableHlo.binary_result main_v48 main_arg6 main_v49 _ _ _ _ (W6 m ρ c)).symm
  · have h1 : W7 m ρ c b = W6 m ρ c b := by unfold W7 Pipeline.withArrays; exact dif_neg hb
    rw [h1, HloOp.result_of_not_mem]
    rw [StableHlo.binary_writes, Finset.mem_singleton]
    intro e
    exact hb ⟨2, e.symm⟩

/-- Transform 2 as a host operation: its result buffer from its two operand buffers. -/
abbrev op2 : HloOp τ sig (Elt Ideal) :=
  StableHlo.binary main_arg2 main_arg4 main_v97 (lin256 : (⟨S100000x256, .f32⟩ : BufTy).Contents (Elt Ideal) → (⟨S64x256, .f32⟩ : BufTy).Contents (Elt Ideal) → (⟨S100000x64, .f32⟩ : BufTy).Contents (Elt Ideal))

/-- The buffers after transform 2 are the buffers before it with that one operation applied. -/
theorem W11_eq (c : Dev nD) : W11 (F := Ideal) m ρ c = (op2).result (W10 m ρ c) := by
  funext b
  by_cases hb : ∃ w, Proc.devRef .tc (Pipeline.arrRef spec2 w) = b
  · obtain ⟨w, rfl⟩ := hb
    rw [W11_arr]
    match w with
    | ⟨0, _⟩ =>
      refine (((dat2 (V10 m ρ) c).arrAt_in 0 rfl _).trans (A_eq2 (V10 m ρ) c 0)).trans ?_
      exact (StableHlo.binary_result_ne main_arg2 main_arg4 main_v97 _ _ _ _ (W10 m ρ c) (r := main_arg2) (by decide)).symm
    | ⟨1, _⟩ =>
      refine (((dat2 (V10 m ρ) c).arrAt_in 1 rfl _).trans (A_eq2 (V10 m ρ) c 1)).trans ?_
      exact (StableHlo.binary_result_ne main_arg2 main_arg4 main_v97 _ _ _ _ (W10 m ρ c) (r := main_arg4) (by decide)).symm
    | ⟨2, _⟩ =>
      refine (final2 (V10 m ρ) c).trans ?_
      exact (StableHlo.binary_result main_arg2 main_arg4 main_v97 _ _ _ _ (W10 m ρ c)).symm
  · have h1 : W11 m ρ c b = W10 m ρ c b := by unfold W11 Pipeline.withArrays; exact dif_neg hb
    rw [h1, HloOp.result_of_not_mem]
    rw [StableHlo.binary_writes, Finset.mem_singleton]
    intro e
    exact hb ⟨2, e.symm⟩

/-- Transform 3 as a host operation: its result buffer from its two operand buffers. -/
abbrev op3 : HloOp τ sig (Elt Ideal) :=
  StableHlo.binary main_v114 main_arg6 main_v115 (lin64 : (⟨S100000x64, .f32⟩ : BufTy).Contents (Elt Ideal) → (⟨S64x64, .f32⟩ : BufTy).Contents (Elt Ideal) → (⟨S100000x64, .f32⟩ : BufTy).Contents (Elt Ideal))

/-- The buffers after transform 3 are the buffers before it with that one operation applied. -/
theorem W14_eq (c : Dev nD) : W14 (F := Ideal) m ρ c = (op3).result (W13 m ρ c) := by
  funext b
  by_cases hb : ∃ w, Proc.devRef .tc (Pipeline.arrRef spec3 w) = b
  · obtain ⟨w, rfl⟩ := hb
    rw [W14_arr]
    match w with
    | ⟨0, _⟩ =>
      refine (((dat3 (V13 m ρ) c).arrAt_in 0 rfl _).trans (A_eq3 (V13 m ρ) c 0)).trans ?_
      exact (StableHlo.binary_result_ne main_v114 main_arg6 main_v115 _ _ _ _ (W13 m ρ c) (r := main_v114) (by decide)).symm
    | ⟨1, _⟩ =>
      refine (((dat3 (V13 m ρ) c).arrAt_in 1 rfl _).trans (A_eq3 (V13 m ρ) c 1)).trans ?_
      exact (StableHlo.binary_result_ne main_v114 main_arg6 main_v115 _ _ _ _ (W13 m ρ c) (r := main_arg6) (by decide)).symm
    | ⟨2, _⟩ =>
      refine (final3 (V13 m ρ) c).trans ?_
      exact (StableHlo.binary_result main_v114 main_arg6 main_v115 _ _ _ _ (W13 m ρ c)).symm
  · have h1 : W14 m ρ c b = W13 m ρ c b := by unfold W14 Pipeline.withArrays; exact dif_neg hb
    rw [h1, HloOp.result_of_not_mem]
    rw [StableHlo.binary_writes, Finset.mem_singleton]
    intro e
    exact hb ⟨2, e.symm⟩

/-! ## The whole program as one line -/

/-- The program's host operations in order, each transform in its place as one operation. -/
abbrev line : List (HloOp τ sig (Elt Ideal)) :=
  hostOps0 ++ (hostOps0_1 ++ (hostOps0_2 ++ (op0 :: (hostOps1 ++ (hostOps1_1 ++ (op1 :: (hostOps2 ++ (hostOps2_1 ++ (hostOps2_2 ++ (op2 :: (hostOps3 ++ (hostOps3_1 ++ (op3 :: hostOps4)))))))))))))

theorem after_cons_append (op : HloOp τ sig (Elt Ideal)) (l : List (HloOp τ sig (Elt Ideal))) (V : Valuation τ sig (Elt Ideal)) :
    StableHlo.after (op :: l) V = StableHlo.after l (op.result V) := rfl

/-- The buffers at the end of the program are the launch memory with the line applied. -/
theorem W15_eq (c : Dev nD) : W15 (F := Ideal) m ρ c = StableHlo.after line (W0 m ρ c) := by
  have e14 := W14_eq m ρ c
  have e11 := W11_eq m ρ c
  have e7 := W7_eq m ρ c
  have e4 := W4_eq m ρ c
  unfold line
  rw [StableHlo.after_append, StableHlo.after_append, StableHlo.after_append, after_cons_append op0,
    StableHlo.after_append, StableHlo.after_append, after_cons_append op1,
    StableHlo.after_append, StableHlo.after_append, StableHlo.after_append, after_cons_append op2,
    StableHlo.after_append, StableHlo.after_append, after_cons_append op3]
  show StableHlo.after hostOps4 (W14 m ρ c) = _
  rw [e14]
  show StableHlo.after hostOps4 (op3.result (StableHlo.after hostOps3_1 (StableHlo.after hostOps3 (W11 m ρ c)))) = _
  rw [e11]
  show StableHlo.after hostOps4 (op3.result (StableHlo.after hostOps3_1 (StableHlo.after hostOps3 (op2.result
    (StableHlo.after hostOps2_2 (StableHlo.after hostOps2_1 (StableHlo.after hostOps2 (W7 m ρ c)))))))) = _
  rw [e7]
  show StableHlo.after hostOps4 (op3.result (StableHlo.after hostOps3_1 (StableHlo.after hostOps3 (op2.result
    (StableHlo.after hostOps2_2 (StableHlo.after hostOps2_1 (StableHlo.after hostOps2 (op1.result
    (StableHlo.after hostOps1_1 (StableHlo.after hostOps1 (W4 m ρ c))))))))))) = _
  rw [e4]

end Cert.KernelIdeal.Line

end
-- ==== Proof.Net.lean ====
/-
  The network as a composition of named stages, once over each program's vocabulary.

  Edges with self loops, degrees, degree^(-1/2), edge weights, one aggregation, the rectifier, and the two layers
  composed over the two node-feature transforms (taken as parameters). The two programs print the same host
  operations over their own shapes and dimension records; stage by stage the two spellings are one function.
-/
import proofs.«115272_j58093727646297_1_alg».proof.Proof.MatmulIdx

noncomputable section

namespace Cert.KernelIdeal.Net

open Idealize.ShloMosaic Cert.KernelIdeal Cert.KernelIdeal.Gen

variable {F : FTy → Type} [FloatOps F]

/-- The sources of the edges, a self loop appended per node. -/
def src (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

/-- The destinations of the edges, a self loop appended per node. -/
def dst (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- Node numbers as a column of start indices, a negative one counted from the end. -/
def wrap (e : IVec S1700000 32) : IVec S1700000x1 32 :=
  broadcastInDim S1700000x1 ![0] bcast_S1700000_S1700000x1_0 (select (cmpi .slt e (broadcastInDim S1700000 ![] bcast_S_S1700000 (constantI S_ 32 0#32))) (addi e (broadcastInDim S1700000 ![] bcast_S_S1700000 (constantI S_ 32 100000#32))) e)

/-- A node's degree: ones scatter-added at the destinations. -/
def deg (d : IVec S1700000 32) : FVec F S100000 .f32 :=
  Host.scatterAdd scatter_S100000_S1700000x1_S1700000_n_0_0_1 (broadcastInDim S100000 ![] bcast_S_S100000 (constant (F := F) S_ .f32 0x00000000#32)) (broadcastInDim S1700000x1 ![0] bcast_S1700000_S1700000x1_0 d) (broadcastInDim S1700000 ![] bcast_S_S1700000 (constant (F := F) S_ .f32 0x3F800000#32))

/-- degree^(-1/2) where the degree is positive, zero elsewhere. -/
def dinv (g : FVec F S100000 .f32) : FVec F S100000 .f32 :=
  select (cmpf (F := F) .ogt g (broadcastInDim S100000 ![] bcast_S_S100000 (constant (F := F) S_ .f32 0x00000000#32))) (Host.powf g (broadcastInDim S100000 ![] bcast_S_S100000 (constant (F := F) S_ .f32 0xBF000000#32))) (broadcastInDim S100000 ![] bcast_S_S100000 (id (constant (F := F) S_ .f32 0x00000000#32)))

/-- An edge's weight: the two ends' degree^(-1/2) multiplied. -/
def norm (s d : IVec S1700000 32) : FVec F S1700000 .f32 :=
  mulf (Host.gather gather_S100000_S1700000x1_S1700000_n_0_n_n_0_1_1 (dinv (F := F) (deg d)) (wrap s)) (Host.gather gather_S100000_S1700000x1_S1700000_n_0_n_n_0_1_1 (dinv (F := F) (deg d)) (wrap d))

/-- One aggregation: rows gathered at the sources, scaled by the edge weights, scatter-added at the destinations, plus the bias. -/
def agg (h : FVec F S100000x64 .f32) (s d : IVec S1700000 32) (nw : FVec F S1700000 .f32) (b : FVec F S64 .f32) : FVec F S100000x64 .f32 :=
  addf (Host.scatterAdd scatter_S100000x64_S1700000x1_S1700000x64_1_0_0_1 (broadcastInDim S100000x64 ![] bcast_S_S100000x64 (constant (F := F) S_ .f32 0x00000000#32)) (broadcastInDim S1700000x1 ![0] bcast_S1700000_S1700000x1_0 d) (mulf (Host.gather gather_S100000x64_S1700000x1_S1700000x64_1_0_n_n_0_1_164 h (wrap s)) (broadcastInDim S1700000x64 ![0, 1] bcast_S1700000x1_S1700000x64_0_1 (broadcastInDim S1700000x1 ![0] bcast_S1700000_S1700000x1_0 nw)))) (broadcastInDim S100000x64 ![0, 1] bcast_S1x64_S100000x64_0_1 (broadcastInDim S1x64 ![1] bcast_S64_S1x64_1 b))

/-- The rectifier between the layers. -/
def relu (h : FVec F S100000x64 .f32) : FVec F S100000x64 .f32 :=
  maximumf h (broadcastInDim S100000x64 ![] bcast_S_S100000x64 (constant (F := F) S_ .f32 0x00000000#32))

/-- The two-layer network on one graph, over the two node-feature transforms it is built on. -/
def net (l256 : FVec F S100000x256 .f32 → FVec F S64x256 .f32 → FVec F S100000x64 .f32)
    (l64 : FVec F S100000x64 .f32 → FVec F S64x64 .f32 → FVec F S100000x64 .f32)
    (x : FVec F S100000x256 .f32) (ei : IVec S2x1600000 32) (w0 : FVec F S64x256 .f32) (b0 : FVec F S64 .f32) (w1 : FVec F S64x64 .f32) (b1 : FVec F S64 .f32) : FVec F S100000x64 .f32 :=
  agg (l64 (relu (agg (l256 x w0) (src ei) (dst ei) (norm (src ei) (dst ei)) b0)) w1) (src ei) (dst ei) (norm (src ei) (dst ei)) b1

end Cert.KernelIdeal.Net

namespace Cert.ReferenceIdeal.Net

open Idealize.ShloMosaic Cert.ReferenceIdeal Cert.ReferenceIdeal.Gen

variable {F : FTy → Type} [FloatOps F]

/-- The sources of the edges, a self loop appended per node. -/
def src (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

/-- The destinations of the edges, a self loop appended per node. -/
def dst (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- Node numbers as a column of start indices, a negative one counted from the end. -/
def wrap (e : IVec S1700000 32) : IVec S1700000x1 32 :=
  broadcastInDim S1700000x1 ![0] bcast_S1700000_S1700000x1_0 (select (cmpi .slt e (broadcastInDim S1700000 ![] bcast_S_S1700000 (constantI S_ 32 0#32))) (addi e (broadcastInDim S1700000 ![] bcast_S_S1700000 (constantI S_ 32 100000#32))) e)

/-- A node's degree: ones scatter-added at the destinations. -/
def deg (d : IVec S1700000 32) : FVec F S100000 .f32 :=
  Host.scatterAdd scatter_S100000_S1700000x1_S1700000_n_0_0_1 (broadcastInDim S100000 ![] bcast_S_S100000 (constant (F := F) S_ .f32 0x00000000#32)) (broadcastInDim S1700000x1 ![0] bcast_S1700000_S1700000x1_0 d) (broadcastInDim S1700000 ![] bcast_S_S1700000 (constant (F := F) S_ .f32 0x3F800000#32))

/-- degree^(-1/2) where the degree is positive, zero elsewhere. -/
def dinv (g : FVec F S100000 .f32) : FVec F S100000 .f32 :=
  select (cmpf (F := F) .ogt g (broadcastInDim S100000 ![] bcast_S_S100000 (constant (F := F) S_ .f32 0x00000000#32))) (Host.powf g (broadcastInDim S100000 ![] bcast_S_S100000 (constant (F := F) S_ .f32 0xBF000000#32))) (broadcastInDim S100000 ![] bcast_S_S100000 (id (constant (F := F) S_ .f32 0x00000000#32)))

/-- An edge's weight: the two ends' degree^(-1/2) multiplied. -/
def norm (s d : IVec S1700000 32) : FVec F S1700000 .f32 :=
  mulf (Host.gather gather_S100000_S1700000x1_S1700000_n_0_n_n_0_1_1 (dinv (F := F) (deg d)) (wrap s)) (Host.gather gather_S100000_S1700000x1_S1700000_n_0_n_n_0_1_1 (dinv (F := F) (deg d)) (wrap d))

/-- One aggregation: rows gathered at the sources, scaled by the edge weights, scatter-added at the destinations, plus the bias. -/
def agg (h : FVec F S100000x64 .f32) (s d : IVec S1700000 32) (nw : FVec F S1700000 .f32) (b : FVec F S64 .f32) : FVec F S100000x64 .f32 :=
  addf (Host.scatterAdd scatter_S100000x64_S1700000x1_S1700000x64_1_0_0_1 (broadcastInDim S100000x64 ![] bcast_S_S100000x64 (constant (F := F) S_ .f32 0x00000000#32)) (broadcastInDim S1700000x1 ![0] bcast_S1700000_S1700000x1_0 d) (mulf (Host.gather gather_S100000x64_S1700000x1_S1700000x64_1_0_n_n_0_1_164 h (wrap s)) (broadcastInDim S1700000x64 ![0, 1] bcast_S1700000x1_S1700000x64_0_1 (broadcastInDim S1700000x1 ![0] bcast_S1700000_S1700000x1_0 nw)))) (broadcastInDim S100000x64 ![0, 1] bcast_S1x64_S100000x64_0_1 (broadcastInDim S1x64 ![1] bcast_S64_S1x64_1 b))

/-- The rectifier between the layers. -/
def relu (h : FVec F S100000x64 .f32) : FVec F S100000x64 .f32 :=
  maximumf h (broadcastInDim S100000x64 ![] bcast_S_S100000x64 (constant (F := F) S_ .f32 0x00000000#32))

/-- The two-layer network on one graph, over the two node-feature transforms it is built on. -/
def net (l256 : FVec F S100000x256 .f32 → FVec F S64x256 .f32 → FVec F S100000x64 .f32)
    (l64 : FVec F S100000x64 .f32 → FVec F S64x64 .f32 → FVec F S100000x64 .f32)
    (x : FVec F S100000x256 .f32) (ei : IVec S2x1600000 32) (w0 : FVec F S64x256 .f32) (b0 : FVec F S64 .f32) (w1 : FVec F S64x64 .f32) (b1 : FVec F S64 .f32) : FVec F S100000x64 .f32 :=
  agg (l64 (relu (agg (l256 x w0) (src ei) (dst ei) (norm (src ei) (dst ei)) b0)) w1) (src ei) (dst ei) (norm (src ei) (dst ei)) b1

end Cert.ReferenceIdeal.Net

namespace Cert.Net

open Idealize.ShloMosaic

theorem src_eq : @Cert.KernelIdeal.Net.src = @Cert.ReferenceIdeal.Net.src := rfl
theorem dst_eq : @Cert.KernelIdeal.Net.dst = @Cert.ReferenceIdeal.Net.dst := rfl
theorem wrap_eq : @Cert.KernelIdeal.Net.wrap = @Cert.ReferenceIdeal.Net.wrap := rfl
theorem deg_eq : @Cert.KernelIdeal.Net.deg = @Cert.ReferenceIdeal.Net.deg := rfl
theorem dinv_eq : @Cert.KernelIdeal.Net.dinv = @Cert.ReferenceIdeal.Net.dinv := rfl
theorem relu_eq : @Cert.KernelIdeal.Net.relu = @Cert.ReferenceIdeal.Net.relu := rfl

theorem norm_eq : @Cert.KernelIdeal.Net.norm = @Cert.ReferenceIdeal.Net.norm := by
  unfold Cert.KernelIdeal.Net.norm Cert.ReferenceIdeal.Net.norm
  rw [dinv_eq, deg_eq, wrap_eq]
  rfl

theorem agg_eq : @Cert.KernelIdeal.Net.agg = @Cert.ReferenceIdeal.Net.agg := by
  unfold Cert.KernelIdeal.Net.agg Cert.ReferenceIdeal.Net.agg
  rw [wrap_eq]
  rfl

theorem net_eq : @Cert.KernelIdeal.Net.net = @Cert.ReferenceIdeal.Net.net := by
  unfold Cert.KernelIdeal.Net.net Cert.ReferenceIdeal.Net.net
  rw [agg_eq, relu_eq, src_eq, dst_eq, norm_eq]

end Cert.Net

end
-- ==== Proof.Terms.lean ====
/-
  The two programs compute one term.

  With each transform read as x @ w.T in the reference's own spelling, the kernel program is a straight line of host
  operations, and what it leaves in a result buffer is a composition of those operations over the argument arrays:
  edges with self loops, degrees by a scatter of ones, the symmetric normalisation gathered at both ends of each edge,
  and twice over: transform, gather at the sources, scale, scatter-add at the destinations, add the bias (with a
  rectifier between the two layers). The kernel computes the normalisation once per graph and the reference once per
  layer, from the same edges by the same operations; as composed terms of the arguments they are the same term — the
  network of Net.lean, read over each program's own shapes and dimension records — and so are the two results.
  The line is read for any float values and any four functions in the transforms' places: nothing in reading it
  depends on what a float operation is.
-/
import proofs.«115272_j58093727646297_1_alg».proof.Proof.RegionOps
import proofs.«115272_j58093727646297_1_alg».proof.Proof.RefRun
import proofs.«115272_j58093727646297_1_alg».proof.Proof.Net

noncomputable section

namespace Cert.KernelIdeal.Line

open Idealize.ShloMosaic Idealize.ShloMosaic.TcCoe Idealize.SL.Sem Idealize.ShloMosaic.StableHlo
open Cert.KernelIdeal Cert.KernelIdeal.Gen
open Cert.ReferenceIdeal.Lin (lin256 lin64)

/-- The program's two-operand concatenation (1600000 edge endpoints, then the 100000 self loops) as a function of its
    two operands: an operand inside a concatenation's list of (shape, array) pairs is out of a rewriting pass's reach,
    an argument of this function is not. -/
def cat {α : Type} (a : S1600000.Idx → α) (b : S100000.Idx → α) : S1700000.Idx → α :=
  concatenate S1700000 0 [⟨S1600000, a⟩, ⟨S100000, b⟩] concatenates_S1600000_S100000_S1700000_d0
theorem cat_fold {α : Type} (a : S1600000.Idx → α) (b : S100000.Idx → α) :
    concatenate S1700000 0 [⟨S1600000, a⟩, ⟨S100000, b⟩] concatenates_S1600000_S100000_S1700000_d0 = cat a b := rfl

section AnyFloat

variable {F : FTy → Type} [FloatOps F]

/-- The program's line of host operations with any four functions in the transforms' places. -/
abbrev lineG (f0 : (⟨S100000x256, .f32⟩ : BufTy).Contents (Elt F) → (⟨S64x256, .f32⟩ : BufTy).Contents (Elt F) → (⟨S100000x64, .f32⟩ : BufTy).Contents (Elt F)) (f1 : (⟨S100000x64, .f32⟩ : BufTy).Contents (Elt F) → (⟨S64x64, .f32⟩ : BufTy).Contents (Elt F) → (⟨S100000x64, .f32⟩ : BufTy).Contents (Elt F)) (f2 : (⟨S100000x256, .f32⟩ : BufTy).Contents (Elt F) → (⟨S64x256, .f32⟩ : BufTy).Contents (Elt F) → (⟨S100000x64, .f32⟩ : BufTy).Contents (Elt F)) (f3 : (⟨S100000x64, .f32⟩ : BufTy).Contents (Elt F) → (⟨S64x64, .f32⟩ : BufTy).Contents (Elt F) → (⟨S100000x64, .f32⟩ : BufTy).Contents (Elt F)) : List (HloOp τ sig (Elt F)) :=
  hostOps0 ++ (hostOps0_1 ++ (hostOps0_2 ++ (StableHlo.binary main_arg0 main_arg4 main_v31 f0 :: (hostOps1 ++ (hostOps1_1 ++ (StableHlo.binary main_v48 main_arg6 main_v49 f1 :: (hostOps2 ++ (hostOps2_1 ++ (hostOps2_2 ++ (StableHlo.binary main_arg2 main_arg4 main_v97 f2 :: (hostOps3 ++ (hostOps3_1 ++ (StableHlo.binary main_v114 main_arg6 main_v115 f3 :: hostOps4)))))))))))))

set_option maxRecDepth 65536 in
set_option maxHeartbeats 40000000 in
/-- Result 0 of the line, for any float values, any four transforms and any starting contents: the network over
    transforms 0 and 1 of graph 1's arguments. -/
theorem lineG_result0 (f0 : (⟨S100000x256, .f32⟩ : BufTy).Contents (Elt F) → (⟨S64x256, .f32⟩ : BufTy).Contents (Elt F) → (⟨S100000x64, .f32⟩ : BufTy).Contents (Elt F)) (f1 : (⟨S100000x64, .f32⟩ : BufTy).Contents (Elt F) → (⟨S64x64, .f32⟩ : BufTy).Contents (Elt F) → (⟨S100000x64, .f32⟩ : BufTy).Contents (Elt F)) (f2 : (⟨S100000x256, .f32⟩ : BufTy).Contents (Elt F) → (⟨S64x256, .f32⟩ : BufTy).Contents (Elt F) → (⟨S100000x64, .f32⟩ : BufTy).Contents (Elt F)) (f3 : (⟨S100000x64, .f32⟩ : BufTy).Contents (Elt F) → (⟨S64x64, .f32⟩ : BufTy).Contents (Elt F) → (⟨S100000x64, .f32⟩ : BufTy).Contents (Elt F)) (V : Valuation τ sig (Elt F)) :
    StableHlo.after (lineG f0 f1 f2 f3) V (Proc.devRef .tc main_v65)
      = Cert.KernelIdeal.Net.net f0 f1 (V (Proc.devRef .tc main_arg0)) (V (Proc.devRef .tc main_arg1)) (V (Proc.devRef .tc main_arg4)) (V (Proc.devRef .tc main_arg5)) (V (Proc.devRef .tc main_arg6)) (V (Proc.devRef .tc main_arg7)) := by
  unfold lineG
  simp only [hostOps0, hostOps0_1, hostOps0_2, hostOps1, hostOps1_1, hostOps2, hostOps2_1, hostOps2_2, hostOps3, hostOps3_1, hostOps4, List.cons_append, List.nil_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', cat_fold]
  rfl

set_option maxRecDepth 65536 in
set_option maxHeartbeats 40000000 in
/-- Result 1 of the line, for any float values, any four transforms and any starting contents: the network over
    transforms 2 and 3 of graph 2's arguments. -/
theorem lineG_result1 (f0 : (⟨S100000x256, .f32⟩ : BufTy).Contents (Elt F) → (⟨S64x256, .f32⟩ : BufTy).Contents (Elt F) → (⟨S100000x64, .f32⟩ : BufTy).Contents (Elt F)) (f1 : (⟨S100000x64, .f32⟩ : BufTy).Contents (Elt F) → (⟨S64x64, .f32⟩ : BufTy).Contents (Elt F) → (⟨S100000x64, .f32⟩ : BufTy).Contents (Elt F)) (f2 : (⟨S100000x256, .f32⟩ : BufTy).Contents (Elt F) → (⟨S64x256, .f32⟩ : BufTy).Contents (Elt F) → (⟨S100000x64, .f32⟩ : BufTy).Contents (Elt F)) (f3 : (⟨S100000x64, .f32⟩ : BufTy).Contents (Elt F) → (⟨S64x64, .f32⟩ : BufTy).Contents (Elt F) → (⟨S100000x64, .f32⟩ : BufTy).Contents (Elt F)) (V : Valuation τ sig (Elt F)) :
    StableHlo.after (lineG f0 f1 f2 f3) V (Proc.devRef .tc main_v131)
      = Cert.KernelIdeal.Net.net f2 f3 (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold lineG
  simp only [hostOps0, hostOps0_1, hostOps0_2, hostOps1, hostOps1_1, hostOps2, hostOps2_1, hostOps2_2, hostOps3, hostOps3_1, hostOps4, List.cons_append, List.nil_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', cat_fold]
  rfl

end AnyFloat

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)

/-- The kernel program's line is that line with the reference's two products in the transforms' places. -/
theorem line_eq : (line : List (HloOp τ sig (Elt Ideal))) = lineG lin256 lin64 lin256 lin64 := rfl

/-- The kernel program's result 0: the network of graph 1's arguments over the reference's two products. -/
theorem kernel0_eq (c : Dev nD) :
    W15 (F := Ideal) m ρ c (Proc.devRef .tc main_v65) = Cert.KernelIdeal.Net.net lin256 lin64 (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) := by
  rw [W15_eq, line_eq]
  exact lineG_result0 (F := Ideal) lin256 lin64 lin256 lin64 (W0 m ρ c)

/-- The kernel program's result 1: the network of graph 2's arguments over the reference's two products. -/
theorem kernel1_eq (c : Dev nD) :
    W15 (F := Ideal) m ρ c (Proc.devRef .tc main_v131) = Cert.KernelIdeal.Net.net lin256 lin64 (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [W15_eq, line_eq]
  exact lineG_result1 (F := Ideal) lin256 lin64 lin256 lin64 (W0 m ρ c)

set_option maxRecDepth 65536 in
set_option maxHeartbeats 40000000 in
/-- The reference's composed term for result 0: the network of graph 1's arguments over its two products. -/
theorem reference0_eq (c : Dev Cert.ReferenceIdeal.nD) :
    Cert.ReferenceIdeal.ValueP.res_main_v91 (F := Ideal) m' c = Cert.ReferenceIdeal.Net.net lin256 lin64 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) := by
  unfold Cert.ReferenceIdeal.ValueP.res_main_v91
  unfold Cert.ReferenceIdeal.Net.net Cert.ReferenceIdeal.Net.agg Cert.ReferenceIdeal.Net.norm Cert.ReferenceIdeal.Net.dinv Cert.ReferenceIdeal.Net.deg Cert.ReferenceIdeal.Net.wrap Cert.ReferenceIdeal.Net.src Cert.ReferenceIdeal.Net.dst Cert.ReferenceIdeal.Net.relu Cert.ReferenceIdeal.Lin.lin64 Cert.ReferenceIdeal.Lin.lin256
  rfl

set_option maxRecDepth 65536 in
set_option maxHeartbeats 40000000 in
/-- The reference's composed term for result 1: the network of graph 2's arguments over its two products. -/
theorem reference1_eq (c : Dev Cert.ReferenceIdeal.nD) :
    Cert.ReferenceIdeal.ValueP.res_main_v183 (F := Ideal) m' c = Cert.ReferenceIdeal.Net.net lin256 lin64 (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) := by
  unfold Cert.ReferenceIdeal.ValueP.res_main_v183
  unfold Cert.ReferenceIdeal.Net.net Cert.ReferenceIdeal.Net.agg Cert.ReferenceIdeal.Net.norm Cert.ReferenceIdeal.Net.dinv Cert.ReferenceIdeal.Net.deg Cert.ReferenceIdeal.Net.wrap Cert.ReferenceIdeal.Net.src Cert.ReferenceIdeal.Net.dst Cert.ReferenceIdeal.Net.relu Cert.ReferenceIdeal.Lin.lin64 Cert.ReferenceIdeal.Lin.lin256
  rfl

/-- Result 0 of the two programs, from memories agreeing on the arguments. -/
theorem result0_eq (c : Dev nD) (hagree : (m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7))) :
    W15 (F := Ideal) m ρ c (Proc.devRef .tc main_v65) = Cert.ReferenceIdeal.ValueP.res_main_v91 m' c := by
  obtain ⟨h0, h1, h2, h3, h4, h5, h6, h7⟩ := hagree
  rw [kernel0_eq, reference0_eq, h0, h1, h4, h5, h6, h7, Cert.Net.net_eq]

/-- Result 1 of the two programs, from memories agreeing on the arguments. -/
theorem result1_eq (c : Dev nD) (hagree : (m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7))) :
    W15 (F := Ideal) m ρ c (Proc.devRef .tc main_v131) = Cert.ReferenceIdeal.ValueP.res_main_v183 m' c := by
  obtain ⟨h0, h1, h2, h3, h4, h5, h6, h7⟩ := hagree
  rw [kernel1_eq, reference1_eq, h2, h3, h4, h5, h6, h7, Cert.Net.net_eq]

end Cert.KernelIdeal.Line

end
-- ==== Proof.lean ====
/-
  A two-layer graph convolution on two graphs, kernel against reference, on the extended reals.

  Both programs compute, per graph, out = Â · relu(Â · (x @ W0.T) + b0) @ W1.T + b1 in the gather / scatter-add form:
  the edges with a self loop added per node, a node's degree as a scatter-add of ones at the destinations, the weight
  of an edge deg[src]^(-1/2) · deg[dst]^(-1/2) (zero where the degree is not positive), and per layer the rows of
  h = x @ W.T gathered at the sources, scaled by the edge weights, scatter-added at the destinations, plus the bias.
  The kernel program computes the four products x @ W.T by a tiled matrix kernel (blocks of 5000 rows, operands rounded
  to bf16 on the way in, which is the identity on the extended reals) and everything else by the same host operations
  as the reference; it computes the edge weights once per graph where the reference recomputes them per layer.

  The proof: each tiled product leaves x @ W.T in its result array, entry by entry the reference's own contraction
  (MatmulIdx, Blocks); so each is one host operation and the kernel program one line of host operations from the launch
  memory (RegionOps, KernelRun); reading that line at a result buffer gives the reference's composed term of the same
  arguments (Terms, RefRun). No algebraic law beyond re-indexing one sum is needed, and the precondition is not used.
-/
import proofs.«115272_j58093727646297_1_alg».proof.Defs
import proofs.«115272_j58093727646297_1_alg».proof.Proof.Gen.Kernel
import proofs.«115272_j58093727646297_1_alg».proof.Proof.Gen.Kernel.Skeleton
import proofs.«115272_j58093727646297_1_alg».proof.Proof.Gen.Kernel.Launch
import proofs.«115272_j58093727646297_1_alg».proof.Proof.Gen.Kernel.Points
import proofs.«115272_j58093727646297_1_alg».proof.Proof.Gen.Kernel.Frame
import proofs.«115272_j58093727646297_1_alg».proof.Proof.Gen.KernelIdeal
import proofs.«115272_j58093727646297_1_alg».proof.Proof.Gen.KernelIdeal.Skeleton
import proofs.«115272_j58093727646297_1_alg».proof.Proof.Gen.KernelIdeal.Launch
import proofs.«115272_j58093727646297_1_alg».proof.Proof.Gen.KernelIdeal.Points
import proofs.«115272_j58093727646297_1_alg».proof.Proof.Gen.KernelIdeal.Frame
import proofs.«115272_j58093727646297_1_alg».proof.Proof.Gen.ReferenceIdeal
import proofs.«115272_j58093727646297_1_alg».proof.Proof.Gen.Pre_finite_inputs
import proofs.«115272_j58093727646297_1_alg».proof.Proof.KernelRun
import proofs.«115272_j58093727646297_1_alg».proof.Proof.RefRun
import proofs.«115272_j58093727646297_1_alg».proof.Proof.Terms
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does the kernel program on the extended reals. -/
theorem frame_ki : Cert.frame_KernelIdeal := fun m ρ _ => Cert.KernelIdeal.Gen.frame m ρ

/-- The reference runs and leaves its arguments as launched: its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- From memories agreeing on the arguments both programs end with equal results: the kernel program's line of host
    operations read at each result buffer is the reference's composed term. -/
theorem algebraic : Cert.algebraic_KernelIdeal_ReferenceIdeal := by
  intro m ρ m' ρ' _ hagree
  refine ⟨fun c => Cert.KernelIdeal.Gen.W15 m ρ c (Proc.devRef .tc Cert.KernelIdeal.main_v65),
    fun c => Cert.KernelIdeal.Gen.W15 m ρ c (Proc.devRef .tc Cert.KernelIdeal.main_v131),
    Cert.KernelIdeal.Whole.run_results (F := Ideal) m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · exact (Cert.KernelIdeal.Line.result0_eq m ρ m' c (hagree c)).symm
  · exact (Cert.KernelIdeal.Line.result1_eq m ρ m' c (hagree c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
